-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048 : Shape := ⟨2, ![16, 2048]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : IVec S16x2048 32) (main_arg3 : FVec F S1024x1024 .f32) (main_arg4 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x2048x1024 : Shape := ⟨3, ![16, 2048, 1024]⟩
abbrev S16x2048 : Shape := ⟨2, ![16, 2048]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16x1x2048 : Shape := ⟨3, ![16, 1, 2048]⟩
abbrev S1x256x1024 : Shape := ⟨3, ![1, 256, 1024]⟩
abbrev S1x2048x1024 : Shape := ⟨3, ![1, 2048, 1024]⟩
abbrev S1x1x2048 : Shape := ⟨3, ![1, 1, 2048]⟩
abbrev S2048x1024 : Shape := ⟨2, ![2048, 1024]⟩
abbrev S256x1024 : Shape := ⟨2, ![256, 1024]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 15
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048, .i32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x1x2048, .f32⟩
  | .hbm, ⟨14, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1024x1024, .f32⟩
  | .local _ .vmem, ⟨4, _⟩ => ⟨S1x1024, .f32⟩
  | .local _ .vmem, ⟨5, _⟩ => ⟨S1x1x2048, .f32⟩
  | .local _ .vmem, ⟨6, _⟩ => ⟨S1x256x1024, .f32⟩
  | .local _ .vmem, ⟨7, _⟩ => ⟨S1x256x1024, .f32⟩
  | .local _ .vmem, ⟨8, _⟩ => ⟨S2048x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1024_S1x1024 : S1024.ShapeCasts S1x1024
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S2048x1024_S1024x1024_S2048x1024_1_1_0_0_n_n_wf : DotDims.WF S2048x1024 S1024x1024 S2048x1024 [1] [1] [0] [0] [] []
  dot_S256x1024_S1024x1024_S256x1024_1_1_0_0_n_n_wf : DotDims.WF S256x1024 S1024x1024 S256x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .f32 = 32 ∨ (Rect.block (s := S16x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S16x1x2048.size a
  hwx0_4 : ∀ i : grid0.Coords, EltTy.bits .f32 = 32 ∨ (Rect.block (s := S16x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x2048x1024.size a
  hwx0_5 : ∀ i : grid0.Coords, EltTy.bits .f32 = 32 ∨ (Rect.block (s := S16x2048x1024) S1x256x1024.size (cc0_transform_5 i) (hinb0_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x2048 : Shape := ⟨2, ![16, 2048]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S16x2048x2048 : Shape := ⟨3, ![16, 2048, 2048]⟩
abbrev S16x1x2048 : Shape := ⟨3, ![16, 1, 2048]⟩
abbrev S16x2048x1 : Shape := ⟨3, ![16, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048, .i32⟩
  | .hbm, ⟨3, _⟩ => ⟨S1024x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S_, .f32⟩
  | .hbm, ⟨11, _⟩ => ⟨S16x2048x1024, .f32⟩
  | .hbm, ⟨12, _⟩ => ⟨S16x2048x1024, .f32⟩
  | .hbm, ⟨13, _⟩ => ⟨S1x1x1024, .f32⟩
  | .hbm, ⟨14, _⟩ => ⟨S16x2048x1024, .f32⟩
  | .hbm, ⟨15, _⟩ => ⟨S16x2048x1024, .f32⟩
  | .hbm, ⟨16, _⟩ => ⟨S16x2048x2048, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S16x1x2048, .f32⟩
  | .hbm, ⟨25, _⟩ => ⟨S16x2048x2048, .f32⟩
  | .hbm, ⟨26, _⟩ => ⟨S16x2048x2048, .f32⟩
  | .hbm, ⟨27, _⟩ => ⟨S_, .f32⟩
  | .hbm, ⟨28, _⟩ => ⟨S16x2048, .f32⟩
  | .hbm, ⟨29, _⟩ => ⟨S_, .f32⟩
  | .hbm, ⟨30, _⟩ => ⟨S16x2048, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S16x2048x1024 : S_.BroadcastsInDim S16x2048x1024 (![] : Fin 0 → Fin S16x2048x1024.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Pieces.lean ====
/-
  What one run of the kernel body leaves behind, as values of what it loaded.

  The body keeps a [2048, 1024] table between grid points.  At the first query tile of a batch it fills the table with
  the rectified projection of the batch's key block, and then (at every tile) computes its [256, 1024] output block
  from the query tile, the weights, the diagonal row, the table, the mask row and the key block.  So there are two
  cases: at a first tile the table read is the one just stored; at a later tile it is what the earlier point left.
-/
import proofs.«101994_j50208167690563_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- At a first tile the table ends holding the rectified projection of the key block: its one whole store. -/
theorem table_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1x2048 .f32) (harg6 : arg6.IsWhole) (arg7 : Memref sig .tc .vmem S1x256x1024 .f32) (harg7 : arg7.IsWhole) (arg8 : Memref sig .tc .vmem S2048x1024 .f32) (harg8 : arg8.IsWhole) (hc0 : cond0_0 i)
    (x0 : Vec F S1x256x1024 .f32) (x1 : Vec F S1x2048x1024 .f32) (x2 : Vec F S1024x1024 .f32) (x3 : Vec F S1x1024 .f32) (x4 : Vec F S1x1x2048 .f32) :
    sout0_A_0 c i arg2 harg2 arg3 harg3 arg4 harg4 arg5 harg5 arg6 harg6 arg7 harg7 arg8 harg8 hc0 x0 x1 x2 x3 x4 = k0_pay2 x1 x2 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero zeros2]
  simp only [View.readAt_eq_ld, harg2.read_unread, harg3.read_unread, harg4.read_unread, harg5.read_unread, harg6.read_unread, harg8.read_unread,
    View.ld_unit_zero (S := S1x256x1024) zeros3, View.ld_unit_zero (S := S1x2048x1024) zeros3, View.ld_unit_zero (S := S1024x1024) zeros2,
    View.ld_unit_zero (S := S1x1024) zeros2, View.ld_unit_zero (S := S1x1x2048) zeros3, View.ld_unit_zero (S := S2048x1024) zeros2]

/-- At a first tile the output block is the body's arithmetic over the table it has just stored. -/
theorem block_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1x2048 .f32) (harg6 : arg6.IsWhole) (arg7 : Memref sig .tc .vmem S1x256x1024 .f32) (harg7 : arg7.IsWhole) (arg8 : Memref sig .tc .vmem S2048x1024 .f32) (harg8 : arg8.IsWhole) (hc0 : cond0_0 i)
    (x0 : Vec F S1x256x1024 .f32) (x1 : Vec F S1x2048x1024 .f32) (x2 : Vec F S1024x1024 .f32) (x3 : Vec F S1x1024 .f32) (x4 : Vec F S1x1x2048 .f32) :
    out0_A_5 c i arg2 harg2 arg3 harg3 arg4 harg4 arg5 harg5 arg6 harg6 arg7 harg7 arg8 harg8 hc0 x0 x1 x2 x3 x4 = k0_pay1 (k0_pay3 x0 x2 x3 (k0_pay2 x1 x2) x4 x1) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero zeros3, View.readCov_unit_zero (S := S2048x1024) _ zeros2]
  simp only [View.readAt_eq_ld, harg2.read_unread, harg3.read_unread, harg4.read_unread, harg5.read_unread, harg6.read_unread, harg8.read_unread,
    View.ld_unit_zero (S := S1x256x1024) zeros3, View.ld_unit_zero (S := S1x2048x1024) zeros3, View.ld_unit_zero (S := S1024x1024) zeros2,
    View.ld_unit_zero (S := S1x1024) zeros2, View.ld_unit_zero (S := S1x1x2048) zeros3, View.ld_unit_zero (S := S2048x1024) zeros2]

/-- At a later tile the output block is the same arithmetic over the table the point before left. -/
theorem block_later (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1x2048 .f32) (harg6 : arg6.IsWhole) (arg7 : Memref sig .tc .vmem S1x256x1024 .f32) (harg7 : arg7.IsWhole) (arg8 : Memref sig .tc .vmem S2048x1024 .f32) (harg8 : arg8.IsWhole) (hc0 : ¬cond0_0 i)
    (x0 : Vec F S1x256x1024 .f32) (x1 : Vec F S1x2048x1024 .f32) (x2 : Vec F S1024x1024 .f32) (x3 : Vec F S1x1024 .f32) (x4 : Vec F S1x1x2048 .f32) (xs0 : Vec F S2048x1024 .f32) :
    out0_B_5 c i arg2 harg2 arg3 harg3 arg4 harg4 arg5 harg5 arg6 harg6 arg7 harg7 arg8 harg8 hc0 x0 x1 x2 x3 x4 xs0 = k0_pay1 (k0_pay3 x0 x2 x3 xs0 x4 x1) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero zeros3]
  simp only [View.readAt_eq_ld, harg2.read_unread, harg3.read_unread, harg4.read_unread, harg5.read_unread, harg6.read_unread, harg8.read_unread,
    View.ld_unit_zero (S := S1x256x1024) zeros3, View.ld_unit_zero (S := S1x2048x1024) zeros3, View.ld_unit_zero (S := S1024x1024) zeros2,
    View.ld_unit_zero (S := S1x1024) zeros2, View.ld_unit_zero (S := S1x1x2048) zeros3, View.ld_unit_zero (S := S2048x1024) zeros2]

end Cert.KernelIdeal.Found

end
-- ==== Proof.Spec.lean ====
/-
  Diagonal attention as one function of its five argument arrays, index by index, over the extended reals.

  For a batch `b`, a query position `i` and an output column `d`:
    * every position `l` of a sequence `X[b]` is projected to `max (∑ₖ X[b,l,k] · W[h,k]) 0` (a rectified projection);
    * the score of query `i` against key `j` is `∑ₕ (proj X1 [b,i,h] · diag[h]) · proj X2 [b,j,h]` plus the mask term
      `(1 − mask[b,j]) · (−10000)` of the key;
    * the scores of a query are turned into weights `exp (s j − m) / ∑ⱼ exp (s j − m)`, `m` their maximum folded from `−∞`;
    * the output is `∑ⱼ weight j · X2[b,j,d]`.
  Everything is stated per query ROW: one output row depends on one query row, the weights, the diagonal, the table of
  projected keys of its batch, the batch's mask row and the batch's key block.  Float literals stay as their words.
-/
import Idealize.ShloMosaic.PureOps.Ideal
import Idealize.ShloMosaic.Lib.ValueIdx
import Mathlib.Data.Finset.Fold

noncomputable section

namespace Cert.DiagAttn

open Idealize.ShloMosaic Idealize.ShloMosaic.ValueIdx

/-- `max x 0`, the zero as the float word the programs write. -/
def relu (x : EReal) : EReal := max x (Ideal.ofBits .f32 0x00000000#32)

/-- One row `x` projected by the weights `wt` and rectified, at feature `h`. -/
def projRow (x : Fin 1024 → EReal) (wt : Fin 1024 → Fin 1024 → EReal) (h : Fin 1024) : EReal :=
  relu (∑ k : Fin 1024, x k * wt h k)

/-- The score of the query row `x` against key `j`: its scaled projection against the table's row `j`, plus the key's mask term. -/
def scoreRow (x : Fin 1024 → EReal) (wt : Fin 1024 → Fin 1024 → EReal) (dg : Fin 1024 → EReal)
    (tb : Fin 2048 → Fin 1024 → EReal) (mk : Fin 2048 → EReal) (j : Fin 2048) : EReal :=
  (∑ h : Fin 1024, (projRow x wt h * dg h) * tb j h) + mk j

/-- The maximum of a row of scores, folded from `−∞` (the float word). -/
def rowMax (s : Fin 2048 → EReal) : EReal :=
  (Finset.univ : Finset (Fin 2048)).fold max (Ideal.ofBits .f32 0xFF800000#32) s

/-- The unnormalised weight of key `j`. -/
def expRow (s : Fin 2048 → EReal) (j : Fin 2048) : EReal := Ideal.exp (s j - rowMax s)

/-- The normalised weight of key `j`: divided by the sum of the row's weights. -/
def softRow (s : Fin 2048 → EReal) (j : Fin 2048) : EReal := Ideal.div (expRow s j) (∑ j' : Fin 2048, expRow s j')

/-- One output row: the weighted sum of the key block's rows. -/
def attnRow (x : Fin 1024 → EReal) (wt : Fin 1024 → Fin 1024 → EReal) (dg : Fin 1024 → EReal)
    (tb : Fin 2048 → Fin 1024 → EReal) (mk : Fin 2048 → EReal) (kv : Fin 2048 → Fin 1024 → EReal) (d : Fin 1024) : EReal :=
  ∑ j : Fin 2048, softRow (scoreRow x wt dg tb mk) j * kv j d

/-- The mask term of key `j` of batch `b`: `(1 − mask) · (−10000)`, the mask an integer word read as a real. -/
def maskTerm (M : (⟨2, ![16, 2048]⟩ : Shape).Idx → BitVec 32) (b : Fin 16) (j : Fin 2048) : EReal :=
  (Ideal.ofBits .f32 0x3F800000#32 - FloatOps.sitofp (F := Ideal) .f32 (M (ix2 b j))) * Ideal.ofBits .f32 0xC61C4000#32

/-- THE LAYER: output element `(b, i, d)` from the five arrays. -/
def out (X1 X2 : (⟨3, ![16, 2048, 1024]⟩ : Shape).Idx → EReal) (M : (⟨2, ![16, 2048]⟩ : Shape).Idx → BitVec 32)
    (W : (⟨2, ![1024, 1024]⟩ : Shape).Idx → EReal) (D : (⟨1, ![1024]⟩ : Shape).Idx → EReal)
    (b : Fin 16) (i : Fin 2048) (d : Fin 1024) : EReal :=
  attnRow (fun k => X1 (ix3 b i k)) (fun h k => W (ix2 h k)) (fun h => D (ix1 h))
    (fun j h => projRow (fun k => X2 (ix3 b j k)) (fun h k => W (ix2 h k)) h) (fun j => maskTerm M b j)
    (fun j d => X2 (ix3 b j d)) d

/-- The layer as an array. -/
def outArr (X1 X2 : (⟨3, ![16, 2048, 1024]⟩ : Shape).Idx → EReal) (M : (⟨2, ![16, 2048]⟩ : Shape).Idx → BitVec 32)
    (W : (⟨2, ![1024, 1024]⟩ : Shape).Idx → EReal) (D : (⟨1, ![1024]⟩ : Shape).Idx → EReal) :
    (⟨3, ![16, 2048, 1024]⟩ : Shape).Idx → EReal :=
  fun idx => out X1 X2 M W D (idx 0) (idx 1) (idx 2)

/-- Taking the maximum with the fold's own starting value once more changes nothing: the fold is already above it. -/
theorem max_init_rowMax (s : Fin 2048 → EReal) : max (Ideal.ofBits .f32 0xFF800000#32) (rowMax s) = rowMax s :=
  max_eq_right ((Finset.le_fold_max _).mpr (Or.inl le_rfl))

end Cert.DiagAttn

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.Arith.lean ====
/-
  The body's arithmetic read at an index, over the extended reals.

  The table entry `(j, h)` is the rectified projection of key row `j` at feature `h`.  The output block's entry `(r, d)`
  is the attention row of query row `r`: its scores against the 2048 table rows plus the mask row, the scores' maximum
  folded from `−∞`, the exponentials of the differences, their sum, the quotients, and the quotients' weighted sum of
  the key block's column `d`.  A [1, a, b] block viewed as [a, b] (and back) keeps its entries in place.
-/
import proofs.«101994_j50208167690563_2_alg».proof.Proof.Gen.KernelIdeal.Skeleton
import proofs.«101994_j50208167690563_2_alg».proof.Proof.Spec
import proofs.«101994_j50208167690563_2_alg».proof.Proof.LibBroadcast
import proofs.«101994_j50208167690563_2_alg».proof.Proof.LibRowsProduct
import proofs.«101994_j50208167690563_2_alg».proof.Proof.LibPlainProduct
import Idealize.ShloMosaic.PureOps.Ideal.Laws
import Idealize.ShloMosaic.Lib.Pipeline.Value
import Idealize.ShloMosaic.Lib.ValueIdx

noncomputable section

open Idealize.ShloMosaic Idealize.ShloMosaic.ValueIdx

namespace Cert.KernelIdeal.Arith

open Cert.KernelIdeal Cert.KernelIdeal.Gen Cert.DiagAttn

/-- A [1, a, b] block viewed as an [a, b] matrix: entry `(p, q)` is the block's `(0, p, q)`. -/
theorem view_matrix {α : Type} {a b : ℕ} (v : (⟨3, ![1, a, b]⟩ : Shape).Idx → α)
    (h : (⟨3, ![1, a, b]⟩ : Shape).ShapeCasts ⟨2, ![a, b]⟩) (p : Fin a) (q : Fin b) :
    shapeCast (⟨2, ![a, b]⟩ : Shape) v h (ix2 p q) = v (ix3 (0 : Fin 1) p q) := by
  refine (shapeCast_dropUnit_apply ![a, b] v h (ix2 p q)).trans (congrArg v ?_)
  funext c
  match c with
  | ⟨0, _⟩ => rfl
  | ⟨1, _⟩ => rfl
  | ⟨2, _⟩ => rfl

/-- An [a, b] matrix stored as a [1, a, b] block: the block's `(0, p, q)` is entry `(p, q)`. -/
theorem view_block {α : Type} {a b : ℕ} (v : (⟨2, ![a, b]⟩ : Shape).Idx → α)
    (h : (⟨2, ![a, b]⟩ : Shape).ShapeCasts ⟨3, ![1, a, b]⟩) (p : Fin a) (q : Fin b) :
    shapeCast (⟨3, ![1, a, b]⟩ : Shape) v h (ix3 (0 : Fin 1) p q) = v (ix2 p q) := by
  refine (shapeCast_addUnit_apply ![a, b] v h (ix3 (0 : Fin 1) p q)).trans (congrArg v ?_)
  funext c
  match c with
  | ⟨0, _⟩ => rfl
  | ⟨1, _⟩ => rfl

/-- The table the body stores: entry `(j, h)` is the rectified projection of key row `j` at feature `h`. -/
theorem table_apply (Kb : FVec Ideal S1x2048x1024 .f32) (Wt : FVec Ideal S1024x1024 .f32) (j : Fin 2048) (h : Fin 1024) :
    k0_pay2 (F := Ideal) Kb Wt (ix2 j h) = projRow (fun k => Kb (ix3 (0 : Fin 1) j k)) (fun h k => Wt (ix2 h k)) h := by
  unfold k0_pay2 projRow relu
  dsimp only
  rw [shapeCast_self]
  show max (FloatOps.matmul dot_S2048x1024_S1024x1024_S2048x1024_1_1_0_0_n_n (some .fp32)
      (shapeCast S2048x1024 Kb shapeCasts_S1x2048x1024_S2048x1024) Wt (constant S2048x1024 .f32 0x00000000#32) (ix2 j h))
    (Ideal.ofBits .f32 0x00000000#32) = _
  refine congrArg (fun x => max x (Ideal.ofBits .f32 0x00000000#32)) ?_
  refine (Cert.RowsProduct.matmul_nt_apply dot_S2048x1024_S1024x1024_S2048x1024_1_1_0_0_n_n_wf (some .fp32)
    (shapeCast S2048x1024 Kb shapeCasts_S1x2048x1024_S2048x1024) Wt j h).trans ?_
  refine Finset.sum_congr rfl fun k _ => ?_
  rw [view_matrix]

/-! ## The output block, stage by stage -/

/-- The query tile projected, rectified and scaled by the diagonal row. -/
def scaled (Q : FVec Ideal S1x256x1024 .f32) (Wt : FVec Ideal S1024x1024 .f32) (Dr : FVec Ideal S1x1024 .f32) : FVec Ideal S256x1024 .f32 :=
  mulf (maximumf (matmul dot_S256x1024_S1024x1024_S256x1024_1_1_0_0_n_n (some .fp32)
      (shapeCast S256x1024 Q shapeCasts_S1x256x1024_S256x1024) Wt (constant (F := Ideal) S256x1024 .f32 0x00000000#32))
      (broadcast S256x1024 (Scalar.ofBits (F := Ideal) .f32 0x00000000#32)))
    (broadcastTo S256x1024 (shapeCast S1x1024 Dr shapeCasts_S1x1024_S1x1024) broadcasts_S1x1024_S256x1024)

/-- The tile's scores against the table, the mask row added to every row. -/
def scores (Q : FVec Ideal S1x256x1024 .f32) (Wt : FVec Ideal S1024x1024 .f32) (Dr : FVec Ideal S1x1024 .f32)
    (T : FVec Ideal S2048x1024 .f32) (Mr : FVec Ideal S1x1x2048 .f32) : FVec Ideal S256x2048 .f32 :=
  addf (matmul dot_S256x1024_S2048x1024_S256x2048_1_1_0_0_n_n (some .fp32) (scaled Q Wt Dr) T
      (constant (F := Ideal) S256x2048 .f32 0x00000000#32))
    (broadcastTo S256x2048 (shapeCast S1x2048 Mr shapeCasts_S1x1x2048_S1x2048) broadcasts_S1x2048_S256x2048)

/-- Every row's maximum, copied along the row. -/
def tops (S : FVec Ideal S256x2048 .f32) : FVec Ideal S256x2048 .f32 :=
  broadcastTo S256x2048 (shapeCast S256x1 (multiReduction .maximumf [1] S256 S 0xFF800000#32 reduces_S256x2048_S256 (.inl rfl) rfl)
    shapeCasts_S256_S256x1) broadcasts_S256x1_S256x2048

/-- The exponentials of the scores less their row's maximum. -/
def exps (S : FVec Ideal S256x2048 .f32) : FVec Ideal S256x2048 .f32 := exp (subf S (tops S))

/-- Every row's sum, copied along the row. -/
def sums (E : FVec Ideal S256x2048 .f32) : FVec Ideal S256x2048 .f32 :=
  broadcastTo S256x2048 (shapeCast S256x1 (multiReduction .add [1] S256 E 0x00000000#32 reduces_S256x2048_S256 (.inl rfl) rfl)
    shapeCasts_S256_S256x1) broadcasts_S256x1_S256x2048

/-- The normalised weights. -/
def soft (S : FVec Ideal S256x2048 .f32) : FVec Ideal S256x2048 .f32 := divf (exps S) (sums (exps S))

/-- The body's arithmetic is these stages, then the weights' product with the key block. -/
theorem pay3_eq (Q : FVec Ideal S1x256x1024 .f32) (Wt : FVec Ideal S1024x1024 .f32) (Dr : FVec Ideal S1x1024 .f32)
    (T : FVec Ideal S2048x1024 .f32) (Mr : FVec Ideal S1x1x2048 .f32) (Kb : FVec Ideal S1x2048x1024 .f32) :
    k0_pay3 (F := Ideal) Q Wt Dr T Mr Kb = matmul dot_S256x2048_S2048x1024_S256x1024_1_0_0_1_n_n (some .fp32) (soft (scores Q Wt Dr T Mr))
      (shapeCast S2048x1024 Kb shapeCasts_S1x2048x1024_S2048x1024) (constant (F := Ideal) S256x1024 .f32 0x00000000#32) := rfl

theorem scaled_apply (Q : FVec Ideal S1x256x1024 .f32) (Wt : FVec Ideal S1024x1024 .f32) (Dr : FVec Ideal S1x1024 .f32)
    (r : Fin 256) (h : Fin 1024) :
    scaled Q Wt Dr (ix2 r h)
      = projRow (fun k => Q (ix3 (0 : Fin 1) r k)) (fun h k => Wt (ix2 h k)) h * Dr (ix2 (0 : Fin 1) h) := by
  unfold scaled projRow relu
  show max (FloatOps.matmul dot_S256x1024_S1024x1024_S256x1024_1_1_0_0_n_n (some .fp32)
      (shapeCast S256x1024 Q shapeCasts_S1x256x1024_S256x1024) Wt (constant S256x1024 .f32 0x00000000#32) (ix2 r h))
      (Ideal.ofBits .f32 0x00000000#32)
    * broadcastTo S256x1024 (shapeCast S1x1024 Dr shapeCasts_S1x1024_S1x1024) broadcasts_S1x1024_S256x1024 (ix2 r h) = _
  rw [Cert.RowsProduct.broadcastTo_1n_an_apply, shapeCast_self]
  refine congrArg (fun x => max x (Ideal.ofBits .f32 0x00000000#32) * Dr (ix2 (0 : Fin 1) h)) ?_
  refine (Cert.RowsProduct.matmul_nt_apply dot_S256x1024_S1024x1024_S256x1024_1_1_0_0_n_n_wf (some .fp32)
    (shapeCast S256x1024 Q shapeCasts_S1x256x1024_S256x1024) Wt r h).trans ?_
  refine Finset.sum_congr rfl fun k _ => ?_
  rw [view_matrix]

theorem scores_apply (Q : FVec Ideal S1x256x1024 .f32) (Wt : FVec Ideal S1024x1024 .f32) (Dr : FVec Ideal S1x1024 .f32)
    (T : FVec Ideal S2048x1024 .f32) (Mr : FVec Ideal S1x1x2048 .f32) (r : Fin 256) (j : Fin 2048) :
    scores Q Wt Dr T Mr (ix2 r j)
      = scoreRow (fun k => Q (ix3 (0 : Fin 1) r k)) (fun h k => Wt (ix2 h k)) (fun h => Dr (ix2 (0 : Fin 1) h))
          (fun j h => T (ix2 j h)) (fun j => Mr (ix3 (0 : Fin 1) (0 : Fin 1) j)) j := by
  unfold scores scoreRow
  show FloatOps.matmul dot_S256x1024_S2048x1024_S256x2048_1_1_0_0_n_n (some .fp32) (scaled Q Wt Dr) T
      (constant S256x2048 .f32 0x00000000#32) (ix2 r j)
    + broadcastTo S256x2048 (shapeCast S1x2048 Mr shapeCasts_S1x1x2048_S1x2048) broadcasts_S1x2048_S256x2048 (ix2 r j) = _
  rw [Cert.RowsProduct.broadcastTo_1n_an_apply, view_matrix]
  refine congrArg (fun x => x + Mr (ix3 (0 : Fin 1) (0 : Fin 1) j)) ?_
  refine (Cert.RowsProduct.matmul_nt_apply dot_S256x1024_S2048x1024_S256x2048_1_1_0_0_n_n_wf (some .fp32)
    (scaled Q Wt Dr) T r j).trans ?_
  refine Finset.sum_congr rfl fun h _ => ?_
  rw [scaled_apply]

theorem tops_apply (S : FVec Ideal S256x2048 .f32) (r : Fin 256) (j : Fin 2048) :
    tops S (ix2 r j) = rowMax (fun j => S (ix2 r j)) := by
  unfold tops rowMax
  rw [Cert.Layout.broadcastTo_a1_ab_apply, Cert.Layout.shapeCast_col_apply]
  refine (Ideal.multiReduction_maximumf_single S 0xFF800000#32 reduces_S256x2048_S256 (.inl rfl) rfl (ix1 r)).trans ?_
  refine Finset.fold_congr fun k _ => congrArg S (funext fun c => Fin.ext ?_)
  match c with
  | ⟨0, _⟩ => rfl
  | ⟨1, _⟩ => rfl

theorem exps_apply (S : FVec Ideal S256x2048 .f32) (r : Fin 256) (j : Fin 2048) :
    exps S (ix2 r j) = expRow (fun j => S (ix2 r j)) j := by
  unfold exps expRow
  show Ideal.exp (S (ix2 r j) - tops S (ix2 r j)) = _
  rw [tops_apply]

theorem sums_apply (E : FVec Ideal S256x2048 .f32) (r : Fin 256) (j : Fin 2048) :
    sums E (ix2 r j) = ∑ j' : Fin 2048, E (ix2 r j') := by
  unfold sums
  rw [Cert.Layout.broadcastTo_a1_ab_apply, Cert.Layout.shapeCast_col_apply]
  refine (Ideal.multiReduction_add_single E 0x00000000#32 reduces_S256x2048_S256 (.inl rfl) rfl (ix1 r)).trans ?_
  refine Finset.sum_congr rfl fun k _ => congrArg E (funext fun c => Fin.ext ?_)
  match c with
  | ⟨0, _⟩ => rfl
  | ⟨1, _⟩ => rfl

theorem soft_apply (S : FVec Ideal S256x2048 .f32) (r : Fin 256) (j : Fin 2048) :
    soft S (ix2 r j) = softRow (fun j => S (ix2 r j)) j := by
  unfold soft softRow
  show Ideal.div (exps S (ix2 r j)) (sums (exps S) (ix2 r j)) = _
  rw [sums_apply, exps_apply]
  exact congrArg (Ideal.div _) (Finset.sum_congr rfl fun j' _ => exps_apply S r j')

/-- THE OUTPUT BLOCK: entry `(0, r, d)` is the attention row of query row `r` at column `d`. -/
theorem block_apply (Q : FVec Ideal S1x256x1024 .f32) (Wt : FVec Ideal S1024x1024 .f32) (Dr : FVec Ideal S1x1024 .f32)
    (T : FVec Ideal S2048x1024 .f32) (Mr : FVec Ideal S1x1x2048 .f32) (Kb : FVec Ideal S1x2048x1024 .f32) (r : Fin 256) (d : Fin 1024) :
    k0_pay1 (F := Ideal) (k0_pay3 (F := Ideal) Q Wt Dr T Mr Kb) (ix3 (0 : Fin 1) r d)
      = attnRow (fun k => Q (ix3 (0 : Fin 1) r k)) (fun h k => Wt (ix2 h k)) (fun h => Dr (ix2 (0 : Fin 1) h))
          (fun j h => T (ix2 j h)) (fun j => Mr (ix3 (0 : Fin 1) (0 : Fin 1) j)) (fun j d => Kb (ix3 (0 : Fin 1) j d)) d := by
  rw [pay3_eq]
  unfold k0_pay1 attnRow
  dsimp only
  rw [view_block]
  refine (Cert.PlainProduct.matmul_nn_apply dot_S256x2048_S2048x1024_S256x1024_1_0_0_1_n_n_wf (some .fp32)
    (soft (scores Q Wt Dr T Mr)) (shapeCast S2048x1024 Kb shapeCasts_S1x2048x1024_S2048x1024) r d).trans ?_
  refine Finset.sum_congr rfl fun j _ => ?_
  rw [view_matrix, soft_apply]
  exact congrArg (fun s => softRow s j * Kb (ix3 (0 : Fin 1) j d)) (funext fun j' => scores_apply Q Wt Dr T Mr r j')

end Cert.KernelIdeal.Arith

end
-- ==== Proof.Blocks.lean ====
/-
  Where each block the body loads sits in the argument arrays.

  The grid has 16 · 8 points; point `t` works on batch `t / 8` and query tile `t % 8`.  Its query block is rows
  `256 · (t % 8) …` of the first sequence's batch, its key block the whole second sequence of the batch, the weights
  and the diagonal row are the same at every point, and its mask row is the batch's row of mask terms
  `(1 − mask) · (−10000)`, which the program computes from the integer mask before the kernel starts.  The output
  block is rows `256 · (t % 8) …` of the batch in the result.
-/
import proofs.«101994_j50208167690563_2_alg».proof.Proof.Gen.KernelIdeal.Frame
import proofs.«101994_j50208167690563_2_alg».proof.Proof.Spec
import proofs.«101994_j50208167690563_2_alg».proof.Proof.LibBroadcast
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.DiagAttn

variable (m : (ℓ : Loc nD τ sig) → Buf (Elt Ideal) ℓ)

/-- The printed index maps over the grid: batch `t / 8` and tile `t % 8` where a window moves, zero elsewhere. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = t.val % 8 ∧ win0_5.index t (2 : Fin 3) = 0 :=
  (by decide +kernel : ∀ t : Fin grid0.N, _)

/-- The query block's row `r` is row `256 · (t % 8) + r` of batch `t / 8` of the first sequence. -/
theorem query_block (c : Dev nD) (t : Fin cfg0.N) (b : Fin 16) (hb : b.val = t.val / 8) (i : Fin 2048) (r : Fin 256)
    (hi : i.val = 256 * (t.val % 8) + r.val) (k : Fin 1024) :
    iblk m c 0 t (ix3 (0 : Fin 1) r k) = m ((c : Thread nD τ).loc main_arg0) (ix3 b i k) := by
  obtain ⟨e0, e1, e2, -⟩ := idx_facts t
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * r.val = i.val; omega
  | ⟨2, _⟩ => show win0_0.index t (2 : Fin 3) * 1024 + 1 * k.val = k.val; omega

/-- The key block is batch `t / 8` of the second sequence. -/
theorem key_block (c : Dev nD) (t : Fin cfg0.N) (b : Fin 16) (hb : b.val = t.val / 8) (j : Fin 2048) (k : Fin 1024) :
    iblk m c 1 t (ix3 (0 : Fin 1) j k) = m ((c : Thread nD τ).loc main_arg1) (ix3 b j k) := by
  obtain ⟨-, -, -, e0, e1, e2, -⟩ := idx_facts t
  show V m c main_arg1 (((cfg0.win 1).blk t).view.emb (ix3 (0 : Fin 1) j k)) = _
  rw [V_main_arg1]
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * j.val = j.val; omega
  | ⟨2, _⟩ => show win0_1.index t (2 : Fin 3) * 1024 + 1 * k.val = k.val; omega

/-- The weights' block is the weight matrix. -/
theorem weight_block (c : Dev nD) (t : Fin cfg0.N) (h k : Fin 1024) :
    iblk m c 2 t (ix2 h k) = m ((c : Thread nD τ).loc main_arg3) (ix2 h k) := by
  obtain ⟨-, -, -, -, -, -, e0, e1, -⟩ := idx_facts t
  show V m c main_arg3 (((cfg0.win 2).blk t).view.emb (ix2 h k)) = _
  rw [V_main_arg3]
  refine congrArg _ (funext fun a => Fin.ext ?_)
  match a with
  | ⟨0, _⟩ => show win0_2.index t (0 : Fin 2) * 1024 + 1 * h.val = h.val; omega
  | ⟨1, _⟩ => show win0_2.index t (1 : Fin 2) * 1024 + 1 * k.val = k.val; omega

/-- Before the kernel starts the diagonal is re-laid as one row. -/
theorem diag_array (c : Dev nD) : (V m c main_v0 : S1x1024.Idx → EReal)
    = shapeCast S1x1024 (m ((c : Thread nD τ).loc main_arg4)) shapeCasts_S1024_S1x1024 := by
  dsimp only [Gen.V, Gen.hostOps0]; after_results <;> rfl

/-- The diagonal row's entry `h` is the diagonal's entry `h`. -/
theorem diag_block (c : Dev nD) (t : Fin cfg0.N) (h : Fin 1024) :
    iblk m c 3 t (ix2 (0 : Fin 1) h) = m ((c : Thread nD τ).loc main_arg4) (ix1 h) := by
  obtain ⟨-, -, -, -, -, -, -, -, e0, e1, -⟩ := idx_facts t
  show V m c main_v0 (((cfg0.win 3).blk t).view.emb (ix2 (0 : Fin 1) h)) = _
  rw [diag_array]
  have e : ((cfg0.win 3).blk t).view.emb (ix2 (0 : Fin 1) h) = ix2 (0 : Fin 1) h := by
    funext a; apply Fin.ext
    match a with
    | ⟨0, _⟩ => show win0_3.index t (0 : Fin 2) * 1 + 1 * 0 = 0; omega
    | ⟨1, _⟩ => show win0_3.index t (1 : Fin 2) * 1024 + 1 * h.val = h.val; omega
  rw [e]
  exact Cert.Layout.shapeCast_row_apply _ _ h

/-- Before the kernel starts the mask terms are computed and given a unit middle axis. -/
theorem mask_array (c : Dev nD) : (V m c main_v6 : S16x1x2048.Idx → EReal)
    = broadcastInDim S16x1x2048 ![0, 2] bcast_S16x2048_S16x1x2048_0_2
        (mulf (subf (broadcastInDim S16x2048 ![] bcast_S_S16x2048 (constant (F := Ideal) S_ .f32 0x3F800000#32))
            (sitofp .f32 (m ((c : Thread nD τ).loc main_arg2))))
          (broadcastInDim S16x2048 ![] bcast_S_S16x2048 (constant (F := Ideal) S_ .f32 0xC61C4000#32))) := by
  dsimp only [Gen.V, Gen.hostOps0]; after_results <;> rfl

/-- The mask row's entry `j` is the mask term of key `j` of batch `t / 8`. -/
theorem mask_block (c : Dev nD) (t : Fin cfg0.N) (b : Fin 16) (hb : b.val = t.val / 8) (j : Fin 2048) :
    iblk m c 4 t (ix3 (0 : Fin 1) (0 : Fin 1) j) = maskTerm (m ((c : Thread nD τ).loc main_arg2)) b j := by
  obtain ⟨-, -, -, -, -, -, -, -, -, -, e0, e1, e2, -⟩ := idx_facts t
  show V m c main_v6 (((cfg0.win 4).blk t).view.emb (ix3 (0 : Fin 1) (0 : Fin 1) j)) = _
  rw [mask_array]
  refine (broadcastInDim_apply _ bcast_S16x2048_S16x1x2048_0_2 _ _ (ix2 b j) fun a => ?_).trans rfl
  match a with
  | ⟨0, _⟩ => show b.val = if (16 : Nat) = 1 then 0 else win0_4.index t (0 : Fin 3) * 1 + 1 * 0; rw [if_neg (by decide)]; omega
  | ⟨1, _⟩ => show j.val = if (2048 : Nat) = 1 then 0 else win0_4.index t (2 : Fin 3) * 2048 + 1 * j.val; rw [if_neg (by decide)]; omega

/-- The output block's entry `(r, d)` sits at row `256 · (t % 8) + r` of batch `t / 8`. -/
theorem out_emb (t : Fin cfg0.N) (b : Fin 16) (hb : b.val = t.val / 8) (i : Fin 2048) (r : Fin 256)
    (hi : i.val = 256 * (t.val % 8) + r.val) (d : Fin 1024) :
    ((cfg0.win 5).blk t).view.emb (ix3 (0 : Fin 1) r d) = ix3 b i d := by
  obtain ⟨-, -, -, -, -, -, -, -, -, -, -, -, -, e0, e1, e2⟩ := idx_facts t
  funext a; apply Fin.ext
  match a with
  | ⟨0, _⟩ => show win0_5.index t (0 : Fin 3) * 1 + 1 * 0 = b.val; omega
  | ⟨1, _⟩ => show win0_5.index t (1 : Fin 3) * 256 + 1 * r.val = i.val; omega
  | ⟨2, _⟩ => show win0_5.index t (2 : Fin 3) * 1024 + 1 * d.val = d.val; omega

end Cert.KernelIdeal.Blocks

end
-- ==== Proof.Points.lean ====
/-
  What every grid point leaves: the table and the output block.

  After ANY point the table holds the rectified projection of the keys of that point's batch — stored at the batch's
  first tile and kept by the seven later ones, whose key block is the same batch.  So the output block of every point
  is the attention of its query tile against its own batch's keys, which is the point's block of the layer's result.
-/
import proofs.«101994_j50208167690563_2_alg».proof.Proof.Pieces
import proofs.«101994_j50208167690563_2_alg».proof.Proof.Arith
import proofs.«101994_j50208167690563_2_alg».proof.Proof.Blocks
import proofs.«101994_j50208167690563_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Points

open Cert.KernelIdeal Cert.KernelIdeal.Gen Cert.DiagAttn

section AnyValues
variable {F : FTy → Type} [FloatOps F]
variable (m : (ℓ : Loc nD τ sig) → Buf (Elt F) ℓ)

/-- At every point the output block is the body's arithmetic over the table as the point leaves it: the table just
    stored at a first tile, the table kept at a later one. -/
theorem block_at (c : Dev nD) (t : Fin cfg0.N) :
    (outsAt0 m c t.val t.isLt).1
      = k0_pay1 (k0_pay3 (iblk m c 0 t) (iblk m c 2 t) (iblk m c 3 t) (outsAt0 m c t.val t.isLt).2 (iblk m c 4 t) (iblk m c 1 t)) := by
  by_cases h0 : t.val % 8 = 0
  · rw [outsAt0_A m c t h0]
    dsimp only
    exact (Found.block_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans
      (congrArg (fun T => k0_pay1 (k0_pay3 (iblk m c 0 t) (iblk m c 2 t) (iblk m c 3 t) T (iblk m c 4 t) (iblk m c 1 t)))
        (Found.table_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).symm)
  · rw [outsAt0_B m c t h0]
    dsimp only
    exact Found.block_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) _

end AnyValues

variable (m : (ℓ : Loc nD τ sig) → Buf (Elt Ideal) ℓ)

/-- THE TABLE after point `n`: entry `(j, h)` is the rectified projection of key `j` of batch `n / 8` at feature `h`. -/
theorem table_at (c : Dev nD) : ∀ (n : ℕ) (hn : n < cfg0.N) (b : Fin 16) (hb : b.val = n / 8) (j : Fin 2048) (h : Fin 1024),
    (outsAt0 m c n hn).2 (ix2 j h)
      = projRow (fun k => m ((c : Thread nD τ).loc main_arg1) (ix3 b j k)) (fun h k => m ((c : Thread nD τ).loc main_arg3) (ix2 h k)) h
  | n, hn, b, hb, j, h => by
    by_cases h0 : n % 8 = 0
    · rw [outsAt0_A m c ⟨n, hn⟩ h0]
      dsimp only
      rw [Found.table_first]
      refine (Arith.table_apply (iblk m c 1 ⟨n, hn⟩) (iblk m c 2 ⟨n, hn⟩) j h).trans ?_
      exact congrArg₂ (fun x w => projRow x w h) (funext fun k => Blocks.key_block m c ⟨n, hn⟩ b hb j k)
        (funext fun h' => funext fun k => Blocks.weight_block m c ⟨n, hn⟩ h' k)
    · obtain ⟨k, rfl⟩ : ∃ k, n = k + 1 := ⟨n - 1, by omega⟩
      rw [outsAt0_B m c ⟨k + 1, hn⟩ h0]
      dsimp only
      unfold sout0_B_0
      exact table_at c k (Nat.lt_of_succ_lt hn) b (by omega) j h

/-- WHAT POINT `t` WRITES BACK is its block of the layer's result. -/
theorem flushed_eq (c : Dev nD) (t : Fin cfg0.N) :
    (dats m 0 c).flushed 5 t = ((cfg0.win 5).blk t).view.read (Elt Ideal)
      (outArr (m ((c : Thread nD τ).loc main_arg0)) (m ((c : Thread nD τ).loc main_arg1)) (m ((c : Thread nD τ).loc main_arg2))
        (m ((c : Thread nD τ).loc main_arg3)) (m ((c : Thread nD τ).loc main_arg4))) := by
  have hN : t.val < 128 := lt_of_lt_of_eq t.isLt (show cfg0.N = 128 from N_0)
  rw [Value.flushed5, block_at]
  funext y
  obtain ⟨z, r, d, rfl⟩ : ∃ (z : Fin 1) (r : Fin 256) (d : Fin 1024), y = ix3 z r d := ⟨y 0, y 1, y 2, eq_ix3 y⟩
  obtain rfl : z = 0 := Subsingleton.elim _ _
  let b : Fin 16 := ⟨t.val / 8, by omega⟩
  let i : Fin 2048 := ⟨256 * (t.val % 8) + r.val, by have := r.isLt; omega⟩
  show k0_pay1 (k0_pay3 (iblk m c 0 t) (iblk m c 2 t) (iblk m c 3 t) (outsAt0 m c t.val t.isLt).2 (iblk m c 4 t) (iblk m c 1 t))
      (ix3 (0 : Fin 1) r d) = outArr _ _ _ _ _ (((cfg0.win 5).blk t).view.emb (ix3 (0 : Fin 1) r d))
  rw [Blocks.out_emb t b rfl i r rfl d]
  refine (Arith.block_apply (iblk m c 0 t) (iblk m c 2 t) (iblk m c 3 t) (outsAt0 m c t.val t.isLt).2 (iblk m c 4 t) (iblk m c 1 t) r d).trans ?_
  show _ = out _ _ _ _ _ b i d
  unfold out
  have e0 : (fun k => iblk m c 0 t (ix3 (0 : Fin 1) r k)) = fun k => m ((c : Thread nD τ).loc main_arg0) (ix3 b i k) :=
    funext fun k => Blocks.query_block m c t b rfl i r rfl k
  have e2 : (fun h k => iblk m c 2 t (ix2 h k)) = fun h k => m ((c : Thread nD τ).loc main_arg3) (ix2 h k) :=
    funext fun h => funext fun k => Blocks.weight_block m c t h k
  have e3 : (fun h => iblk m c 3 t (ix2 (0 : Fin 1) h)) = fun h => m ((c : Thread nD τ).loc main_arg4) (ix1 h) :=
    funext fun h => Blocks.diag_block m c t h
  have eT : (fun j h => (outsAt0 m c t.val t.isLt).2 (ix2 j h))
      = fun j h => projRow (fun k => m ((c : Thread nD τ).loc main_arg1) (ix3 b j k)) (fun h k => m ((c : Thread nD τ).loc main_arg3) (ix2 h k)) h :=
    funext fun j => funext fun h => table_at m c t.val t.isLt b rfl j h
  have e4 : (fun j => iblk m c 4 t (ix3 (0 : Fin 1) (0 : Fin 1) j)) = fun j => maskTerm (m ((c : Thread nD τ).loc main_arg2)) b j :=
    funext fun j => Blocks.mask_block m c t b rfl j
  have e1 : (fun j d => iblk m c 1 t (ix3 (0 : Fin 1) j d)) = fun j d => m ((c : Thread nD τ).loc main_arg1) (ix3 b j d) :=
    funext fun j => funext fun d => Blocks.key_block m c t b rfl j d
  rw [e0, e2, e3, eT, e4, e1]

end Cert.KernelIdeal.Points

end
-- ==== Proof.Whole.lean ====
/-
  The kernel's result array after the run is the layer's result.

  The 128 output blocks — batch `t / 8`, rows `256 · (t % 8) …` — tile the [16, 2048, 1024] result: entry `(b, i, d)` lies
  in the block of point `8 · b + i / 256`.  Every point writes its block of the layer's result, so the array ends
  holding the layer's result everywhere.
-/
import proofs.«101994_j50208167690563_2_alg».proof.Proof.Points

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.DiagAttn

variable (m : (ℓ : Loc nD τ sig) → Buf (Elt Ideal) ℓ) (ρ : Dev nD → PrngReg)

/-- The layer's result from the argument arrays as launched. -/
abbrev result (c : Dev nD) : Buf (Elt Ideal) ((c : Thread nD τ).loc main_v7) :=
  outArr (m ((c : Thread nD τ).loc main_arg0)) (m ((c : Thread nD τ).loc main_arg1)) (m ((c : Thread nD τ).loc main_arg2))
    (m ((c : Thread nD τ).loc main_arg3)) (m ((c : Thread nD τ).loc main_arg4))

/-- An index of the result is in point `t`'s block iff each coordinate is in the block's range on its axis. -/
theorem mem_block (t : Fin cfg0.N) (i : S16x2048x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v7).slice (win0_5.rect t)).set ↔ _
  rw [View.set_slice_whole, Rect.mem_set_unit]
  exact Iff.rfl

/-- Every entry of the result is in some point's block. -/
theorem cover (i : S16x2048x1024.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 1024 := (i 2).isLt
  have hN : cfg0.N = 128 := N_0
  have hlt : 8 * (i 0).val + (i 1).val / 256 < cfg0.N := by omega
  refine ⟨⟨8 * (i 0).val + (i 1).val / 256, hlt⟩, flush0_5 _, ?_⟩
  rw [mem_block]
  obtain ⟨-, -, -, -, -, -, -, -, -, -, -, -, -, e0, e1, e2⟩ := Blocks.idx_facts ⟨8 * (i 0).val + (i 1).val / 256, hlt⟩
  have tv : (⟨8 * (i 0).val + (i 1).val / 256, hlt⟩ : Fin cfg0.N).val = 8 * (i 0).val + (i 1).val / 256 := rfl
  rw [tv] at e0 e1
  intro a
  match a with
  | ⟨0, _⟩ =>
    show win0_5.index ⟨8 * (i 0).val + (i 1).val / 256, hlt⟩ (0 : Fin 3) * 1 ≤ (i 0).val
      ∧ (i 0).val < win0_5.index ⟨8 * (i 0).val + (i 1).val / 256, hlt⟩ (0 : Fin 3) * 1 + 1
    omega
  | ⟨1, _⟩ =>
    show win0_5.index ⟨8 * (i 0).val + (i 1).val / 256, hlt⟩ (1 : Fin 3) * 256 ≤ (i 1).val
      ∧ (i 1).val < win0_5.index ⟨8 * (i 0).val + (i 1).val / 256, hlt⟩ (1 : Fin 3) * 256 + 256
    omega
  | ⟨2, _⟩ =>
    show win0_5.index ⟨8 * (i 0).val + (i 1).val / 256, hlt⟩ (2 : Fin 3) * 1024 ≤ (i 2).val
      ∧ (i 2).val < win0_5.index ⟨8 * (i 0).val + (i 1).val / 256, hlt⟩ (2 : Fin 3) * 1024 + 1024
    omega

/-- The result array after the run. -/
theorem final (c : Dev nD) : (dats m 0 c).arrAt 5 cfg0.N = result m c :=
  (dats m 0 c).arrAt_eq_of_cover 5 (result m c) (fun t _ => Points.flushed_eq m c t) cover

/-- The run, read: the result array at the layer's result, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference program computes the layer.

  Read one operation at a time, the reference's result at `(b, i, d)` is the attention row of query `i` of batch `b`:
  both sequences projected by the weights and rectified, the first scaled by the diagonal, the scores against every key
  of the batch plus the key's mask term, the row's maximum folded from `−∞` (taken once more against `−∞`, which
  changes nothing), the exponentials, their sum from zero, the quotients, and the weighted sum of the batch's keys.
-/
import proofs.«101994_j50208167690563_2_alg».proof.Proof.Gen.ReferenceIdeal.Read
import proofs.«101994_j50208167690563_2_alg».proof.Proof.Spec
import Idealize.ShloMosaic.PureOps.Ideal.Laws
import Idealize.ShloMosaic.Lib.ValueIdx

noncomputable section

open Idealize.ShloMosaic Idealize.ShloMosaic.ValueIdx

namespace Cert.ReferenceIdeal.RefValue

open Cert.ReferenceIdeal Cert.ReferenceIdeal.Read Cert.DiagAttn

/-! ## Where each operation reads its operands -/

theorem lidx0 (b : Fin 16) (l : Fin 2048) (h k : Fin 1024) : lidx_main_v0 (ix3 b l h) k = ix3 b l k := funext fun a => by
    match a with
    | ⟨0, _⟩ => rfl
    | ⟨1, _⟩ => rfl
    | ⟨2, _⟩ => rfl
theorem ridx0 (b : Fin 16) (l : Fin 2048) (h k : Fin 1024) : ridx_main_v0 (ix3 b l h) k = ix2 h k := funext fun a => by
    match a with
    | ⟨0, _⟩ => rfl
    | ⟨1, _⟩ => rfl
theorem lidx2 (b : Fin 16) (l : Fin 2048) (h k : Fin 1024) : lidx_main_v2 (ix3 b l h) k = ix3 b l k := funext fun a => by
    match a with
    | ⟨0, _⟩ => rfl
    | ⟨1, _⟩ => rfl
    | ⟨2, _⟩ => rfl
theorem ridx2 (b : Fin 16) (l : Fin 2048) (h k : Fin 1024) : ridx_main_v2 (ix3 b l h) k = ix2 h k := funext fun a => by
    match a with
    | ⟨0, _⟩ => rfl
    | ⟨1, _⟩ => rfl
theorem idx5 (b : Fin 16) (l : Fin 2048) (h : Fin 1024) : idx_main_v4 (idx_main_v5 (ix3 b l h)) = ix1 h := funext fun a => by
    match a with
    | ⟨0, _⟩ => rfl
theorem lidx7 (b : Fin 16) (i j : Fin 2048) (k : Fin 1024) : lidx_main_v7 (ix3 b i j) k = ix3 b i k := funext fun a => by
    match a with
    | ⟨0, _⟩ => rfl
    | ⟨1, _⟩ => rfl
    | ⟨2, _⟩ => rfl
theorem ridx7 (b : Fin 16) (i j : Fin 2048) (k : Fin 1024) : ridx_main_v7 (ix3 b i j) k = ix3 b j k := funext fun a => by
    match a with
    | ⟨0, _⟩ => rfl
    | ⟨1, _⟩ => rfl
    | ⟨2, _⟩ => rfl
theorem idx14 (b : Fin 16) (i j : Fin 2048) : idx_main_v13 (idx_main_v14 (ix3 b i j)) = ix2 b j := funext fun a => by
    match a with
    | ⟨0, _⟩ => rfl
    | ⟨1, _⟩ => rfl
theorem idx20 (b : Fin 16) (i j : Fin 2048) : idx_main_v19 (idx_main_v20 (ix3 b i j)) = ix2 b i := funext fun a => by
    match a with
    | ⟨0, _⟩ => rfl
    | ⟨1, _⟩ => rfl
theorem idx25 (b : Fin 16) (i j : Fin 2048) : idx_main_v24 (idx_main_v25 (ix3 b i j)) = ix2 b i := funext fun a => by
    match a with
    | ⟨0, _⟩ => rfl
    | ⟨1, _⟩ => rfl
theorem idx23 (b : Fin 16) (i k : Fin 2048) : idx_main_v23 (ix2 b i) k = ix3 b i k := funext fun a => by
    match a with
    | ⟨0, _⟩ => rfl
    | ⟨1, _⟩ => rfl
    | ⟨2, _⟩ => rfl
theorem lidx27 (b : Fin 16) (i : Fin 2048) (d : Fin 1024) (k : Fin 2048) : lidx_main_v27 (ix3 b i d) k = ix3 b i k := funext fun a => by
    match a with
    | ⟨0, _⟩ => rfl
    | ⟨1, _⟩ => rfl
    | ⟨2, _⟩ => rfl
theorem ridx27 (b : Fin 16) (i : Fin 2048) (d : Fin 1024) (k : Fin 2048) : ridx_main_v27 (ix3 b i d) k = ix3 b k d := funext fun a => by
    match a with
    | ⟨0, _⟩ => rfl
    | ⟨1, _⟩ => rfl
    | ⟨2, _⟩ => rfl

/-! ## The stages -/

/-- The first sequence projected and rectified. -/
theorem proj1 (X : (⟨S16x2048x1024, .f32⟩ : BufTy).Contents (Elt Ideal)) (W : (⟨S1024x1024, .f32⟩ : BufTy).Contents (Elt Ideal)) (b : Fin 16) (l : Fin 2048) (h : Fin 1024) :
    val_main_v1 (F := Ideal) X W (ix3 b l h) = projRow (fun k => X (ix3 b l k)) (fun h k => W (ix2 h k)) h := by
  rw [val_main_v1_apply, val_main_v0_apply]
  unfold projRow relu
  refine congrArg (fun x => max x (Ideal.ofBits .f32 0x00000000#32)) (Finset.sum_congr rfl fun k _ => ?_)
  rw [lidx0, ridx0]

/-- The second sequence projected and rectified. -/
theorem proj2 (X : (⟨S16x2048x1024, .f32⟩ : BufTy).Contents (Elt Ideal)) (W : (⟨S1024x1024, .f32⟩ : BufTy).Contents (Elt Ideal)) (b : Fin 16) (l : Fin 2048) (h : Fin 1024) :
    val_main_v3 (F := Ideal) X W (ix3 b l h) = projRow (fun k => X (ix3 b l k)) (fun h k => W (ix2 h k)) h := by
  rw [val_main_v3_apply, val_main_v2_apply]
  unfold projRow relu
  refine congrArg (fun x => max x (Ideal.ofBits .f32 0x00000000#32)) (Finset.sum_congr rfl fun k _ => ?_)
  rw [lidx2, ridx2]

/-- The mask terms. -/
theorem mask_apply (M : (⟨S16x2048, .i32⟩ : BufTy).Contents (Elt Ideal)) (b : Fin 16) (j : Fin 2048) :
    val_main_v12 (F := Ideal) M (ix2 b j) = maskTerm M b j := rfl

/-- The scores with the mask terms added. -/
theorem scores_apply (X1 X2 : (⟨S16x2048x1024, .f32⟩ : BufTy).Contents (Elt Ideal)) (M : (⟨S16x2048, .i32⟩ : BufTy).Contents (Elt Ideal)) (W : (⟨S1024x1024, .f32⟩ : BufTy).Contents (Elt Ideal)) (D : (⟨S1024, .f32⟩ : BufTy).Contents (Elt Ideal)) (b : Fin 16) (i j : Fin 2048) :
    val_main_v15 (F := Ideal) X1 X2 M W D (ix3 b i j)
      = scoreRow (fun k => X1 (ix3 b i k)) (fun h k => W (ix2 h k)) (fun h => D (ix1 h))
          (fun j h => projRow (fun k => X2 (ix3 b j k)) (fun h k => W (ix2 h k)) h) (fun j => maskTerm M b j) j := by
  rw [val_main_v15_apply, val_main_v7_apply, val_main_v14_apply, val_main_v13_apply, idx14, mask_apply]
  unfold scoreRow
  refine congrArg (fun x => x + maskTerm M b j) (Finset.sum_congr rfl fun k _ => ?_)
  rw [lidx7, ridx7, val_main_v6_apply, proj1, val_main_v5_apply, val_main_v4_apply, idx5, proj2]
  rfl

/-- A query's scores as a row. -/
abbrev row (X1 X2 : (⟨S16x2048x1024, .f32⟩ : BufTy).Contents (Elt Ideal)) (M : (⟨S16x2048, .i32⟩ : BufTy).Contents (Elt Ideal)) (W : (⟨S1024x1024, .f32⟩ : BufTy).Contents (Elt Ideal)) (D : (⟨S1024, .f32⟩ : BufTy).Contents (Elt Ideal)) (b : Fin 16) (i : Fin 2048) : Fin 2048 → EReal :=
  fun j => val_main_v15 (F := Ideal) X1 X2 M W D (ix3 b i j)

/-- A maximum taken along the last axis of a [16, 2048, 2048] array, at `(b, i)`: the fold of `max` from the starting
    value over the 2048 entries `(b, i, j)`. -/
theorem reduce_max_apply (x : S16x2048x2048.Idx → EReal) (init : S_.Idx → EReal) (b : Fin 16) (i : Fin 2048) :
    Host.reduce (FloatOps.maximumf (F := Ideal) (φ := .f32)) x init Gen.reducesTo_S16x2048x2048_S16x2048_d2 Gen.h_S_ (ix2 b i)
      = (Finset.univ : Finset (Fin 2048)).fold max (init (Shape.Idx.first Gen.h_S_)) (fun j => x (ix3 b i j)) := by
  refine (Host.reduce_eq_fold_single (FloatOps.maximumf (F := Ideal) (φ := .f32)) x init Gen.reducesTo_S16x2048x2048_S16x2048_d2
    (by decide : S16x2048x2048.Reduces [2] S16x2048) Gen.h_S_ (ix2 b i)).trans ?_
  refine Finset.fold_congr fun k _ => congrArg x (funext fun a => Fin.ext ?_)
  match a with
  | ⟨0, _⟩ => rfl
  | ⟨1, _⟩ => rfl
  | ⟨2, _⟩ => rfl

/-- The row maximum. -/
theorem top_apply (X1 X2 : (⟨S16x2048x1024, .f32⟩ : BufTy).Contents (Elt Ideal)) (M : (⟨S16x2048, .i32⟩ : BufTy).Contents (Elt Ideal)) (W : (⟨S1024x1024, .f32⟩ : BufTy).Contents (Elt Ideal)) (D : (⟨S1024, .f32⟩ : BufTy).Contents (Elt Ideal)) (b : Fin 16) (i : Fin 2048) :
    val_main_v18 (F := Ideal) X1 X2 M W D (ix2 b i) = rowMax (row X1 X2 M W D b i) := by
  rw [val_main_v18_apply]
  refine Eq.trans ?_ (max_init_rowMax _)
  refine congrArg (max (Ideal.ofBits .f32 0xFF800000#32)) ?_
  unfold val_main_v16 rowMax
  exact reduce_max_apply (val_main_v15 (F := Ideal) X1 X2 M W D) (val_main_cst_1 (F := Ideal)) b i

/-- The exponentials. -/
theorem exp_apply (X1 X2 : (⟨S16x2048x1024, .f32⟩ : BufTy).Contents (Elt Ideal)) (M : (⟨S16x2048, .i32⟩ : BufTy).Contents (Elt Ideal)) (W : (⟨S1024x1024, .f32⟩ : BufTy).Contents (Elt Ideal)) (D : (⟨S1024, .f32⟩ : BufTy).Contents (Elt Ideal)) (b : Fin 16) (i j : Fin 2048) :
    val_main_v22 (F := Ideal) X1 X2 M W D (ix3 b i j) = expRow (row X1 X2 M W D b i) j := by
  rw [val_main_v22_apply, val_main_v21_apply, val_main_v20_apply, val_main_v19_apply, idx20, top_apply]
  rfl

/-- The sums of the exponentials. -/
theorem sum_apply (X1 X2 : (⟨S16x2048x1024, .f32⟩ : BufTy).Contents (Elt Ideal)) (M : (⟨S16x2048, .i32⟩ : BufTy).Contents (Elt Ideal)) (W : (⟨S1024x1024, .f32⟩ : BufTy).Contents (Elt Ideal)) (D : (⟨S1024, .f32⟩ : BufTy).Contents (Elt Ideal)) (b : Fin 16) (i : Fin 2048) :
    val_main_v23 (F := Ideal) X1 X2 M W D (ix2 b i) = ∑ j : Fin 2048, expRow (row X1 X2 M W D b i) j := by
  rw [val_main_v23_apply]
  show Ideal.ofBits .f32 0x00000000#32 + _ = _
  rw [Ideal.ofBits_zero_f32, zero_add]
  refine Finset.sum_congr rfl fun k _ => ?_
  rw [idx23, exp_apply]

/-- The normalised weights. -/
theorem soft_apply (X1 X2 : (⟨S16x2048x1024, .f32⟩ : BufTy).Contents (Elt Ideal)) (M : (⟨S16x2048, .i32⟩ : BufTy).Contents (Elt Ideal)) (W : (⟨S1024x1024, .f32⟩ : BufTy).Contents (Elt Ideal)) (D : (⟨S1024, .f32⟩ : BufTy).Contents (Elt Ideal)) (b : Fin 16) (i j : Fin 2048) :
    val_main_v26 (F := Ideal) X1 X2 M W D (ix3 b i j) = softRow (row X1 X2 M W D b i) j := by
  rw [val_main_v26_apply, val_main_v25_apply, val_main_v24_apply, idx25, sum_apply, exp_apply]
  rfl

/-- THE REFERENCE'S RESULT is the layer, element by element. -/
theorem out_apply (X1 X2 : (⟨S16x2048x1024, .f32⟩ : BufTy).Contents (Elt Ideal)) (M : (⟨S16x2048, .i32⟩ : BufTy).Contents (Elt Ideal)) (W : (⟨S1024x1024, .f32⟩ : BufTy).Contents (Elt Ideal)) (D : (⟨S1024, .f32⟩ : BufTy).Contents (Elt Ideal)) (b : Fin 16) (i : Fin 2048) (d : Fin 1024) :
    val_main_v27 (F := Ideal) X1 X2 M W D (ix3 b i d) = out X1 X2 M W D b i d := by
  rw [val_main_v27_apply]
  unfold out attnRow
  refine Finset.sum_congr rfl fun k _ => ?_
  rw [lidx27, ridx27, soft_apply]
  exact congrArg (fun s => softRow s k * X2 (ix3 b k d)) (funext fun j => scores_apply X1 X2 M W D b i j)

theorem result_eq (X1 X2 : (⟨S16x2048x1024, .f32⟩ : BufTy).Contents (Elt Ideal)) (M : (⟨S16x2048, .i32⟩ : BufTy).Contents (Elt Ideal)) (W : (⟨S1024x1024, .f32⟩ : BufTy).Contents (Elt Ideal)) (D : (⟨S1024, .f32⟩ : BufTy).Contents (Elt Ideal)) : val_main_v27 (F := Ideal) X1 X2 M W D = outArr X1 X2 M W D :=
  funext fun idx => by
    rw [eq_ix3 idx]
    exact out_apply X1 X2 M W D _ _ _

end Cert.ReferenceIdeal.RefValue

end
-- ==== Proof.lean ====
/-
  Diagonal attention on a grid of 16 · 8 points against the whole-array reference: the two programs compute one
  function of the five argument arrays over the extended reals.

  The kernel keeps, per batch, a table of the rectified key projections (stored at the batch's first query tile, kept
  by the other seven); each point turns its 256 query rows into scores against the table plus the mask row, takes the
  row maxima, the exponentials, their sums and the quotients, and multiplies by the batch's key block.  The reference
  does the same on whole arrays.  Operation for operation the two agree: a matrix product into a zero accumulator is
  the plain sum of products on both sides, a maximum along an axis the same fold of `max` from `−∞`, a sum along an
  axis the same finite sum; the reference's extra maximum against `−∞` changes nothing.  No finiteness is needed:
  the two sides are the same expression of the same extended reals.
-/
import proofs.«101994_j50208167690563_2_alg».proof.Defs
import proofs.«101994_j50208167690563_2_alg».proof.Proof.Gen.Kernel
import proofs.«101994_j50208167690563_2_alg».proof.Proof.Gen.Kernel.Frame
import proofs.«101994_j50208167690563_2_alg».proof.Proof.Gen.KernelIdeal
import proofs.«101994_j50208167690563_2_alg».proof.Proof.Gen.KernelIdeal.Frame
import proofs.«101994_j50208167690563_2_alg».proof.Proof.Gen.KernelIdeal.Value
import proofs.«101994_j50208167690563_2_alg».proof.Proof.Gen.ReferenceIdeal
import proofs.«101994_j50208167690563_2_alg».proof.Proof.Gen.ReferenceIdeal.Run
import proofs.«101994_j50208167690563_2_alg».proof.Proof.Gen.ReferenceIdeal.Read
import proofs.«101994_j50208167690563_2_alg».proof.Proof.Gen.Pre_finite_inputs
import proofs.«101994_j50208167690563_2_alg».proof.Proof.Whole
import proofs.«101994_j50208167690563_2_alg».proof.Proof.RefValue
import Idealize.ShloMosaic.Adequacy
import Idealize.ShloMosaic.Init

noncomputable section

namespace Cert.Proof

open Idealize.ShloMosaic Idealize.SL.Sem

/-- The word-level kernel runs to the end and leaves its arguments as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernel_ideal : @Cert.frame_KernelIdeal Cert.KernelIdeal.Gen.facts Cert.Pre_finite_inputs.Gen.facts :=
  fun m ρ _ => Cert.KernelIdeal.Gen.frame m ρ

/-- The reference runs to the end and leaves its arguments as they were. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the five arguments both programs end with the layer's result. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
